-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S32 : Shape := ⟨1, ![32]⟩
abbrev S160x3 : Shape := ⟨2, ![160, 3]⟩
abbrev S256x3 : Shape := ⟨2, ![256, 3]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel
  bcast_S_S160x3 : S_.BroadcastsInDim S160x3 (![] : Fin 0 → Fin S160x3.rank)
  reducesTo_S160x3_S_d0_1 : S160x3.ReducesTo [0, 1] S_
  bcast_S_S256x3 : S_.BroadcastsInDim S256x3 (![] : Fin 0 → Fin S256x3.rank)
  reducesTo_S256x3_S_d0_1 : S256x3.ReducesTo [0, 1] S_

variable [Facts]

def fn_part1 {F : FTy → Type} [FloatOps F] (main_arg6 : FVec F S256x3 .f32) (main_v13 : IVec S_ 1) (main_v16 : IVec S256x3 1) : IVec S_ 1 :=
  let main_c_5 : IVec S_ 1 := constantI S_ 1 1#1
  let main_v17 : IVec S_ 1 := (fun x v => Host.reduce IntOp.andi x v reducesTo_S256x3_S_d0_1 h_S_) main_v16 main_c_5
  let main_v18 : IVec S_ 1 := andi main_v13 main_v17
  let main_v19 : FVec F S256x3 .f32 := Host.absf main_arg6
  let main_cst_6 : FVec F S_ .f32 := constant S_ .f32 0x7F800000#32
  let main_v20 : FVec F S256x3 .f32 := broadcastInDim S256x3 ![] bcast_S_S256x3 main_cst_6
  let main_v21 : IVec S256x3 1 := cmpf .olt main_v19 main_v20
  let main_c_7 : IVec S_ 1 := constantI S_ 1 1#1
  let main_v22 : IVec S_ 1 := (fun x v => Host.reduce IntOp.andi x v reducesTo_S256x3_S_d0_1 h_S_) main_v21 main_c_7
  let main_v23 : IVec S_ 1 := andi main_v18 main_v22
  main_v23

def fn {F : FTy → Type} [FloatOps F] (main_arg0 : FVec F S32x3x1024x1024 .f32) (main_arg1 : IVec S32 32) (main_arg2 : IVec S32 32) (main_arg3 : FVec F S160x3 .f32) (main_arg4 : FVec F S160x3 .f32) (main_arg5 : FVec F S256x3 .f32) (main_arg6 : FVec F S256x3 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  let main_v4 : FVec F S160x3 .f32 := Host.absf main_arg3
  let main_cst_0 : FVec F S_ .f32 := constant S_ .f32 0x7F800000#32
  let main_v5 : FVec F S160x3 .f32 := broadcastInDim S160x3 ![] bcast_S_S160x3 main_cst_0
  let main_v6 : IVec S160x3 1 := cmpf .olt main_v4 main_v5
  let main_c_1 : IVec S_ 1 := constantI S_ 1 1#1
  let main_v7 : IVec S_ 1 := (fun x v => Host.reduce IntOp.andi x v reducesTo_S160x3_S_d0_1 h_S_) main_v6 main_c_1
  let main_v8 : IVec S_ 1 := andi main_v3 main_v7
  let main_v9 : FVec F S160x3 .f32 := Host.absf main_arg4
  let main_cst_2 : FVec F S_ .f32 := constant S_ .f32 0x7F800000#32
  let main_v10 : FVec F S160x3 .f32 := broadcastInDim S160x3 ![] bcast_S_S160x3 main_cst_2
  let main_v11 : IVec S160x3 1 := cmpf .olt main_v9 main_v10
  let main_c_3 : IVec S_ 1 := constantI S_ 1 1#1
  let main_v12 : IVec S_ 1 := (fun x v => Host.reduce IntOp.andi x v reducesTo_S160x3_S_d0_1 h_S_) main_v11 main_c_3
  let main_v13 : IVec S_ 1 := andi main_v8 main_v12
  let main_v14 : FVec F S256x3 .f32 := Host.absf main_arg5
  let main_cst_4 : FVec F S_ .f32 := constant S_ .f32 0x7F800000#32
  let main_v15 : FVec F S256x3 .f32 := broadcastInDim S256x3 ![] bcast_S_S256x3 main_cst_4
  let main_v16 : IVec S256x3 1 := cmpf .olt main_v14 main_v15
  fn_part1 (F := F) main_arg6 main_v13 main_v16
-- ==== Kernel.lean ====
abbrev S32x3x1024x1024 : Shape := ⟨4, ![32, 3, 1024, 1024]⟩
abbrev S32 : Shape := ⟨1, ![32]⟩
abbrev S160x3 : Shape := ⟨2, ![160, 3]⟩
abbrev S256x3 : Shape := ⟨2, ![256, 3]⟩
abbrev S_ : Shape := ⟨0, ![]⟩
abbrev S32x1 : Shape := ⟨2, ![32, 1]⟩
abbrev S32x3 : Shape := ⟨2, ![32, 3]⟩
abbrev S32x3x1x1 : Shape := ⟨4, ![32, 3, 1, 1]⟩
abbrev S1x3x256x1024 : Shape := ⟨4, ![1, 3, 256, 1024]⟩
abbrev S1x3x1x1 : Shape := ⟨4, ![1, 3, 1, 1]⟩

abbrev nBuf : Space → Nat
  | .hbm => 48
  | .vmem => 8
  | .smem => 0
  | _ => 0

abbrev bufTy : (tb : Table) → Fin (tcTables nBuf tb) → BufTy
  | .hbm, ⟨0, _⟩ => ⟨S32x3x1024x1024, .f32⟩
  | .hbm, ⟨1, _⟩ => ⟨S32, .i32⟩
  | .hbm, ⟨2, _⟩ => ⟨S32, .i32⟩
  | .hbm, ⟨3, _⟩ => ⟨S160x3, .f32⟩
  | .hbm, ⟨4, _⟩ => ⟨S160x3, .f32⟩
  | .hbm, ⟨5, _⟩ => ⟨S256x3, .f32⟩
  | .hbm, ⟨6, _⟩ => ⟨S256x3, .f32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x3, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x3, .f32⟩
  | .hbm, ⟨25, _⟩ => ⟨S32x3, .f32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x3, .f32⟩
  | .hbm, ⟨35, _⟩ => ⟨S_, .i32⟩
  | .hbm, ⟨36, _⟩ => ⟨S32, .i32⟩
  | .hbm, ⟨37, _⟩ => ⟨S32, .i1⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S32, .i32⟩
  | .hbm, ⟨42, _⟩ => ⟨S32x1, .i32⟩
  | .hbm, ⟨43, _⟩ => ⟨S32x3, .f32⟩
  | .hbm, ⟨44, _⟩ => ⟨S32x3, .f32⟩
  | .hbm, ⟨45, _⟩ => ⟨S32x3x1x1, .f32⟩
  | .hbm, ⟨46, _⟩ => ⟨S32x3x1x1, .f32⟩
  | .hbm, ⟨47, _⟩ => ⟨S32x3x1024x1024, .f32⟩
  | .local _ .vmem, ⟨0, _⟩ => ⟨S1x3x256x1024, .f32⟩
  | .local _ .vmem, ⟨1, _⟩ => ⟨S1x3x256x1024, .f32⟩
  | .local _ .vmem, ⟨2, _⟩ => ⟨S1x3x1x1, .f32⟩
  | .local _ .vmem, ⟨3, _⟩ => ⟨S1x3x1x1, .f32⟩
  | .local _ .vmem, ⟨4, _⟩ => ⟨S1x3x1x1, .f32⟩
  | .local _ .vmem, ⟨5, _⟩ => ⟨S1x3x1x1, .f32⟩
  | .local _ .vmem, ⟨6, _⟩ => ⟨S1x3x256x1024, .f32⟩
  | .local _ .vmem, ⟨7, _⟩ => ⟨S1x3x256x1024, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32 : S_.BroadcastsInDim S32 (![] : Fin 0 → Fin S32.rank)
  bcast_S32_S32x1_0 : S32.BroadcastsInDim S32x1 (![0] : Fin 1 → Fin S32x1.rank)
  shapeCasts_S32x3_S32x3x1x1 : S32x3.ShapeCasts S32x3x1x1
  inb_S1x3x1x1_S1x3x1x1_0_0_0_0 : ∀ a, (![0, 0, 0, 0] : Fin 4 → Nat) a + S1x3x1x1.size a ≤ S1x3x1x1.size a
  h_S1x3x1x1 : 0 < S1x3x1x1.numel
  shapeCasts_S1x3x1x1_S1x3x1x1 : S1x3x1x1.ShapeCasts S1x3x1x1
  broadcasts_S1x3x1x1_S1x3x256x1024 : S1x3x1x1.Broadcasts S1x3x256x1024
  inb_S1x3x256x1024_S1x3x256x1024_0_0_0_0 : ∀ a, (![0, 0, 0, 0] : Fin 4 → Nat) a + S1x3x256x1024.size a ≤ S1x3x256x1024.size a
  h_S1x3x256x1024 : 0 < S1x3x256x1024.numel
  gather_S160x3_S32x1_S32x3_1_0_n_n_0_1_13_wf : GatherDims.WF S160x3 S32x1 S32x3 [1] [0] [] [0] [] 1 ![1, 3]
  gather_S256x3_S32x1_S32x3_1_0_n_n_0_1_13_wf : GatherDims.WF S256x3 S32x1 S32x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S32x3x1024x1024.size a
  hwx0_0 : ∀ i : grid0.Coords, EltTy.bits .f32 = 32 ∨ (Rect.block (s := S32x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1x1.size a ≤ S32x3x1x1.size a
  hwx0_1 : ∀ i : grid0.Coords, EltTy.bits .f32 = 32 ∨ (Rect.block (s := S32x3x1x1) S1x3x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1x1.size a ≤ S32x3x1x1.size a
  hwx0_2 : ∀ i : grid0.Coords, EltTy.bits .f32 = 32 ∨ (Rect.block (s := S32x3x1x1) S1x3x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256x1024.size a ≤ S32x3x1024x1024.size a
  hwx0_3 : ∀ i : grid0.Coords, EltTy.bits .f32 = 32 ∨ (Rect.block (s := S32x3x1024x1024) S1x3x256x1024.size (cc0_transform_3 i) (hinb0_3 i)).WholeWords (EltTy.packing .f32)

variable [Facts₀]

def gather_S160x3_S32x1_S32x3_1_0_n_n_0_1_13 : GatherDims S160x3 S32x1 S32x3 where
  offsetDims := [1]
  collapsedSliceDims := [0]
  operandBatchingDims := []
  startIndicesBatchingDims := []
  startIndexMap := [0]
  indexVectorDim := 1
  sliceSizes := ![1, 3]
  wf := gather_S160x3_S32x1_S32x3_1_0_n_n_0_1_13_wf
def gather_S256x3_S32x1_S32x3_1_0_n_n_0_1_13 : GatherDims S256x3 S32x1 S32x3 where
  offsetDims := [1]
  collapsedSliceDims := [0]
  operandBatchingDims := []
  startIndicesBatchingDims := []
  startIndexMap := [0]
  indexVectorDim := 1
  sliceSizes := ![1, 3]
  wf := gather_S256x3_S32x1_S32x3_1_0_n_n_0_1_13_wf

abbrev win0_0 : Pipeline.Window sig grid0 :=
  Pipeline.Window.ofSpec (Memref.whole main_arg0) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x3x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x3x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x3x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x1024x1024 : Shape := ⟨4, ![32, 3, 1024, 1024]⟩
abbrev S32 : Shape := ⟨1, ![32]⟩
abbrev S160x3 : Shape := ⟨2, ![160, 3]⟩
abbrev S256x3 : Shape := ⟨2, ![256, 3]⟩
abbrev S_ : Shape := ⟨0, ![]⟩
abbrev S32x1 : Shape := ⟨2, ![32, 1]⟩
abbrev S32x3 : Shape := ⟨2, ![32, 3]⟩
abbrev S32x3x1x1 : Shape := ⟨4, ![32, 3, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x3x1024x1024, .f32⟩
  | .hbm, ⟨1, _⟩ => ⟨S32, .i32⟩
  | .hbm, ⟨2, _⟩ => ⟨S32, .i32⟩
  | .hbm, ⟨3, _⟩ => ⟨S160x3, .f32⟩
  | .hbm, ⟨4, _⟩ => ⟨S160x3, .f32⟩
  | .hbm, ⟨5, _⟩ => ⟨S256x3, .f32⟩
  | .hbm, ⟨6, _⟩ => ⟨S256x3, .f32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x3, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x3, .f32⟩
  | .hbm, ⟨25, _⟩ => ⟨S32x3, .f32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x3, .f32⟩
  | .hbm, ⟨35, _⟩ => ⟨S_, .i32⟩
  | .hbm, ⟨36, _⟩ => ⟨S32, .i32⟩
  | .hbm, ⟨37, _⟩ => ⟨S32, .i1⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S32, .i32⟩
  | .hbm, ⟨42, _⟩ => ⟨S32x1, .i32⟩
  | .hbm, ⟨43, _⟩ => ⟨S32x3, .f32⟩
  | .hbm, ⟨44, _⟩ => ⟨S32x3, .f32⟩
  | .hbm, ⟨45, _⟩ => ⟨S32x3x1x1, .f32⟩
  | .hbm, ⟨46, _⟩ => ⟨S32x3x1024x1024, .f32⟩
  | .hbm, ⟨47, _⟩ => ⟨S32x3x1024x1024, .f32⟩
  | .hbm, ⟨48, _⟩ => ⟨S32x3x1x1, .f32⟩
  | .hbm, ⟨49, _⟩ => ⟨S32x3x1024x1024, .f32⟩
  | .hbm, ⟨50, _⟩ => ⟨S32x3x1024x1024, .f32⟩
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x3_S32x3x1x1_0_1 : S32x3.BroadcastsInDim S32x3x1x1 (![0, 1] : Fin 2 → Fin S32x3x1x1.rank)
  bcast_S32x3x1x1_S32x3x1024x1024_0_1_2_3 : S32x3x1x1.BroadcastsInDim S32x3x1024x1024 (![0, 1, 2, 3] : Fin 4 → Fin S32x3x1024x1024.rank)
  gather_S160x3_S32x1_S32x3_1_0_n_n_0_1_13_wf : GatherDims.WF S160x3 S32x1 S32x3 [1] [0] [] [0] [] 1 ![1, 3]
  gather_S256x3_S32x1_S32x3_1_0_n_n_0_1_13_wf : GatherDims.WF S256x3 S32x1 S32x3 [1] [0] [] [0] [] 1 ![1, 3]

variable [Facts₀]

def gather_S160x3_S32x1_S32x3_1_0_n_n_0_1_13 : GatherDims S160x3 S32x1 S32x3 where
  offsetDims := [1]
  collapsedSliceDims := [0]
  operandBatchingDims := []
  startIndicesBatchingDims := []
  startIndexMap := [0]
  indexVectorDim := 1
  sliceSizes := ![1, 3]
  wf := gather_S160x3_S32x1_S32x3_1_0_n_n_0_1_13_wf
def gather_S256x3_S32x1_S32x3_1_0_n_n_0_1_13 : GatherDims S256x3 S32x1 S32x3 where
  offsetDims := [1]
  collapsedSliceDims := [0]
  operandBatchingDims := []
  startIndicesBatchingDims := []
  startIndexMap := [0]
  indexVectorDim := 1
  sliceSizes := ![1, 3]
  wf := gather_S256x3_S32x1_S32x3_1_0_n_n_0_1_13_wf

class Facts : Prop extends Facts₀ where

variable [Facts]
-- ==== Proof.Spec.lean ====
/-
  The function both programs compute. For an image `img` of shape [32, 3, 1024, 1024] and two tables `w`, `b`
  of shape [32, 3] (one scale and one bias per sample and channel), the result at (n, ch, h, x) is
  `img (n, ch, h, x) · w (n, ch) + b (n, ch)`: the entry depends on the image at the same index and on the
  tables at the index's first two coordinates only.
-/
import Idealize.ShloMosaic.PureOps
import Idealize.ShloMosaic.Lib.ValueIdx

noncomputable section

namespace Cert.Affine

open Idealize.ShloMosaic Idealize.ShloMosaic.ValueIdx

/-- The image's shape. -/
abbrev Img : Shape := ⟨4, ![32, 3, 1024, 1024]⟩
/-- The shape of a per-sample, per-channel table. -/
abbrev Tab : Shape := ⟨2, ![32, 3]⟩

variable {F : FTy → Type} [FloatOps F]

/-- The per-sample, per-channel affine map of an image: entry `i = (n, ch, h, x)` is
    `img i · w (n, ch) + b (n, ch)`. -/
def affine (img : Img.Idx → Elt F .f32) (w b : Tab.Idx → Elt F .f32) : Img.Idx → Elt F .f32 :=
  fun i => FloatOps.addf (FloatOps.mulf (img i) (w (ix2 (i 0) (i 1)))) (b (ix2 (i 0) (i 1)))

theorem affine_apply (img : Img.Idx → Elt F .f32) (w b : Tab.Idx → Elt F .f32) (i : Img.Idx) :
    affine img w b i = FloatOps.addf (FloatOps.mulf (img i) (w (ix2 (i 0) (i 1)))) (b (ix2 (i 0) (i 1))) := rfl

end Cert.Affine

end
-- ==== Proof.HostTables.lean ====
/-
  What the host operations before the kernel's launch leave in the two small operands of the launch.
  The scale table is `rows of a 160-row table chosen by the first index vector + rows of a 256-row table chosen by
  the second index vector` (an index below zero counted from the table's end), a [32, 3] array; the bias table
  is the same expression of the other two tables. Each is then reshaped to [32, 3, 1, 1]: entry (n, ch, 0, 0) of the
  reshaped array is entry (n, ch) of the table, the two having the same row-major position 3·n + ch.
-/
import proofs.«151597_j6536940224718_1_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ)

/-- One table of the host prefix: row `n` is row `i1 n` of `t160` plus row `i2 n` of `t256`, an index below
    zero first moved up by the table's height. -/
def tab (i1 i2 : (⟨S32, .i32⟩ : BufTy).Contents (Elt F)) (t160 : (⟨S160x3, .f32⟩ : BufTy).Contents (Elt F))
    (t256 : (⟨S256x3, .f32⟩ : BufTy).Contents (Elt F)) : (⟨S32x3, .f32⟩ : BufTy).Contents (Elt F) :=
  addf
    (Host.gather gather_S160x3_S32x1_S32x3_1_0_n_n_0_1_13 t160
      (broadcastInDim S32x1 ![0] bcast_S32_S32x1_0
        (select (cmpi .slt i1 (broadcastInDim S32 ![] bcast_S_S32 (constantI S_ 32 0#32)))
          (addi i1 (broadcastInDim S32 ![] bcast_S_S32 (constantI S_ 32 160#32))) i1)))
    (Host.gather gather_S256x3_S32x1_S32x3_1_0_n_n_0_1_13 t256
      (broadcastInDim S32x1 ![0] bcast_S32_S32x1_0
        (select (cmpi .slt i2 (broadcastInDim S32 ![] bcast_S_S32 (constantI S_ 32 0#32)))
          (addi i2 (broadcastInDim S32 ![] bcast_S_S32 (constantI S_ 32 256#32))) i2)))

/-- The scale table the launch is given, as a function of the arguments. -/
abbrev scaleTab (c : Dev nD) : (⟨S32x3, .f32⟩ : BufTy).Contents (Elt F) :=
  tab (m ((c : Thread nD τ).loc main_arg1)) (m ((c : Thread nD τ).loc main_arg2))
    (m ((c : Thread nD τ).loc main_arg3)) (m ((c : Thread nD τ).loc main_arg5))

/-- The bias table the launch is given, as a function of the arguments. -/
abbrev biasTab (c : Dev nD) : (⟨S32x3, .f32⟩ : BufTy).Contents (Elt F) :=
  tab (m ((c : Thread nD τ).loc main_arg1)) (m ((c : Thread nD τ).loc main_arg2))
    (m ((c : Thread nD τ).loc main_arg4)) (m ((c : Thread nD τ).loc main_arg6))

set_option maxHeartbeats 4000000 in
set_option maxRecDepth 8192 in
/-- The launch's second operand is the scale table reshaped to [32, 3, 1, 1]. -/
theorem scale_operand (c : Dev nD) :
    (V m c main_v30 : S32x3x1x1.Idx → Elt F .f32) = shapeCast S32x3x1x1 (scaleTab m c) shapeCasts_S32x3_S32x3x1x1 := by
  dsimp only [Gen.V, Gen.hostOps0]
  after_results_simp
  rfl

set_option maxHeartbeats 4000000 in
set_option maxRecDepth 8192 in
/-- The launch's third operand is the bias table reshaped to [32, 3, 1, 1]. -/
theorem bias_operand (c : Dev nD) :
    (V m c main_v31 : S32x3x1x1.Idx → Elt F .f32) = shapeCast S32x3x1x1 (biasTab m c) shapeCasts_S32x3_S32x3x1x1 := by
  dsimp only [Gen.V, Gen.hostOps0]
  after_results_simp
  rfl

/-- A [32, 3] table reshaped to [32, 3, 1, 1] and read at `k` is the table at `k`'s first two coordinates. -/
theorem reshaped_apply (x : S32x3.Idx → Elt F .f32) (k : S32x3x1x1.Idx) (p : S32x3.Idx)
    (h0 : (p 0).val = (k 0).val) (h1 : (p 1).val = (k 1).val) :
    shapeCast S32x3x1x1 x shapeCasts_S32x3_S32x3x1x1 k = x p := by
  refine shapeCast_apply _ _ k p ?_
  rw [Shape.rowMajor_val_two, Shape.rowMajor_val_four]
  have h2 : (k 2).val < 1 := (k 2).isLt
  have h3 : (k 3).val < 1 := (k 3).isLt
  show (p 0).val * 3 + (p 1).val = (((k 0).val * 3 + (k 1).val) * 1 + (k 2).val) * 1 + (k 3).val
  omega

end Cert.KernelIdeal.Hand

end
-- ==== Proof.KernelValue.lean ====
/-
  The kernel's result array at any instance of the floats. The grid is 32 × 4: point (n, q) works on sample `n`
  and on rows 256·q … 256·q + 255 of each of its three channels. Its image block is [1, 3, 256, 1024], its scale and
  bias blocks are the [1, 3, 1, 1] slices of sample `n`; the body broadcasts the two small blocks over the
  image block, multiplies and adds. So the block written back at the point is the block of
  `img · w(n, ch) + b(n, ch)` — the affine map of the whole image — and the 128 blocks tile the array.
-/
import proofs.«151597_j6536940224718_1_alg».proof.Proof.Gen.KernelIdeal.Value
import proofs.«151597_j6536940224718_1_alg».proof.Proof.HostTables
import proofs.«151597_j6536940224718_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable {F : FTy → Type} [FloatOps F]
variable (m : (ℓ : Loc nD τ sig) → Buf (Elt F) ℓ) (ρ : Dev nD → PrngReg)

theorem zeros4 : (![0, 0, 0, 0] : Fin 4 → Nat) = fun _ => 0 := funext fun a => by fin_cases a <;> rfl

/-- The four index maps over the grid: the image block and the output block move together (sample on axis 0, row
    block on axis 2); the scale and bias blocks follow the sample and sit at block 0 of their other axes. -/
theorem index_facts : ∀ t : Fin cfg0.N,
    win0_0.index t (0 : Fin 4) = win0_3.index t (0 : Fin 4)
    ∧ win0_0.index t (1 : Fin 4) = 0 ∧ win0_3.index t (1 : Fin 4) = 0
    ∧ win0_0.index t (2 : Fin 4) = win0_3.index t (2 : Fin 4)
    ∧ win0_0.index t (3 : Fin 4) = 0 ∧ win0_3.index t (3 : Fin 4) = 0
    ∧ win0_1.index t (0 : Fin 4) = win0_3.index t (0 : Fin 4)
    ∧ win0_1.index t (1 : Fin 4) = 0 ∧ win0_1.index t (2 : Fin 4) = 0 ∧ win0_1.index t (3 : Fin 4) = 0
    ∧ win0_2.index t (0 : Fin 4) = win0_3.index t (0 : Fin 4)
    ∧ win0_2.index t (1 : Fin 4) = 0 ∧ win0_2.index t (2 : Fin 4) = 0 ∧ win0_2.index t (3 : Fin 4) = 0
    ∧ win0_3.index t (0 : Fin 4) ≤ 31 ∧ win0_3.index t (2 : Fin 4) ≤ 3 :=
  (by decide +kernel : ∀ t : Fin grid0.N, _)

/-- Every (sample, row block) pair is some grid point's output block. -/
theorem index_onto : ∀ (q0 : Fin 32) (q2 : Fin 4), ∃ t : Fin cfg0.N, win0_3.index t = ![q0.val, 0, q2.val, 0] :=
  (by decide +kernel : ∀ (q0 : Fin 32) (q2 : Fin 4), ∃ t : Fin grid0.N, win0_3.index t = ![q0.val, 0, q2.val, 0])

/-- The array the run leaves in the result buffer: the affine map of the image argument by the two host tables. -/
abbrev result (c : Dev nD) : S32x3x1024x1024.Idx → Elt F .f32 :=
  Cert.Affine.affine (V m c main_arg0) (scaleTab m c) (biasTab m c)

/-- What point `t` writes back is block `t` of `result`. -/
theorem flushed_eq (c : Dev nD) (t : Fin cfg0.N) :
    (dats m 0 c).flushed 3 t = ((cfg0.win 3).blk t).view.read (Elt F) (result m c) := by
  show (cfg0.win 3).cut (grid0.coords t) ((dats m 0 c).after 3 t) = _
  rw [after0_3]
  unfold out0_3
  funext j
  refine (Value.canon3_eq _ _ _ j).trans ?_
  simp only [View.ld_unit_zero (S := S1x3x256x1024) zeros4, View.ld_unit_zero (S := S1x3x1x1) zeros4]
  obtain ⟨e00, e01, e31, e02, e03, e33, e10, e11, e12, e13, e20, e21, e22, e23, -, -⟩ := index_facts t
  have hj0 : (j 0).val < 1 := (j 0).isLt
  have hj1 : (j 1).val < 3 := (j 1).isLt
  have hj2 : (j 2).val < 256 := (j 2).isLt
  have hj3 : (j 3).val < 1024 := (j 3).isLt
  show FloatOps.addf (FloatOps.mulf (V m c main_arg0 (((cfg0.win 0).blk t).view.emb (ix3_0 j)))
        ((V m c main_v30 : S32x3x1x1.Idx → Elt F .f32) (((cfg0.win 1).blk t).view.emb (ix3_1 j))))
      ((V m c main_v31 : S32x3x1x1.Idx → Elt F .f32) (((cfg0.win 2).blk t).view.emb (ix3_2 j)))
    = FloatOps.addf (FloatOps.mulf (V m c main_arg0 (((cfg0.win 3).blk t).view.emb j))
        (scaleTab m c (ix2 ((((cfg0.win 3).blk t).view.emb j) 0) ((((cfg0.win 3).blk t).view.emb j) 1))))
      (biasTab m c (ix2 ((((cfg0.win 3).blk t).view.emb j) 0) ((((cfg0.win 3).blk t).view.emb j) 1)))
  have h0 : ((cfg0.win 0).blk t).view.emb (ix3_0 j) = ((cfg0.win 3).blk t).view.emb j := by
    funext a; apply Fin.ext
    match a with
    | ⟨0, _⟩ => show win0_0.index t (0 : Fin 4) * 1 + 1 * 0 = win0_3.index t (0 : Fin 4) * 1 + 1 * (j 0).val; omega
    | ⟨1, _⟩ => show win0_0.index t (1 : Fin 4) * 3 + 1 * (j 1).val = win0_3.index t (1 : Fin 4) * 3 + 1 * (j 1).val; omega
    | ⟨2, _⟩ => show win0_0.index t (2 : Fin 4) * 256 + 1 * (j 2).val = win0_3.index t (2 : Fin 4) * 256 + 1 * (j 2).val; omega
    | ⟨3, _⟩ => show win0_0.index t (3 : Fin 4) * 1024 + 1 * (j 3).val = win0_3.index t (3 : Fin 4) * 1024 + 1 * (j 3).val; omega
  have h1 : (V m c main_v30 : S32x3x1x1.Idx → Elt F .f32) (((cfg0.win 1).blk t).view.emb (ix3_1 j))
      = scaleTab m c (ix2 ((((cfg0.win 3).blk t).view.emb j) 0) ((((cfg0.win 3).blk t).view.emb j) 1)) := by
    rw [scale_operand]
    refine reshaped_apply _ _ _ ?_ ?_
    · show win0_3.index t (0 : Fin 4) * 1 + 1 * (j 0).val = win0_1.index t (0 : Fin 4) * 1 + 1 * 0; omega
    · show win0_3.index t (1 : Fin 4) * 3 + 1 * (j 1).val = win0_1.index t (1 : Fin 4) * 3 + 1 * (j 1).val; omega
  have h2 : (V m c main_v31 : S32x3x1x1.Idx → Elt F .f32) (((cfg0.win 2).blk t).view.emb (ix3_2 j))
      = biasTab m c (ix2 ((((cfg0.win 3).blk t).view.emb j) 0) ((((cfg0.win 3).blk t).view.emb j) 1)) := by
    rw [bias_operand]
    refine reshaped_apply _ _ _ ?_ ?_
    · show win0_3.index t (0 : Fin 4) * 1 + 1 * (j 0).val = win0_2.index t (0 : Fin 4) * 1 + 1 * 0; omega
    · show win0_3.index t (1 : Fin 4) * 3 + 1 * (j 1).val = win0_2.index t (1 : Fin 4) * 3 + 1 * (j 1).val; omega
  rw [h0, h1, h2]

/-- An index of the array is in point `t`'s block iff each coordinate is in the block's range on its axis. -/
theorem mem_blk (t : Fin cfg0.N) (i : S32x3x1024x1024.Idx) :
    i ∈ ((cfg0.win 3).blk t).view.set ↔ ∀ a : Fin 4, win0_3.index t a * S1x3x256x1024.size a ≤ (i a).val
      ∧ (i a).val < win0_3.index t a * S1x3x256x1024.size a + S1x3x256x1024.size a := by
  show i ∈ ((View.whole main_v32).slice (win0_3.rect t)).set ↔ _
  rw [View.set_slice_whole, Rect.mem_set_unit]
  exact Iff.rfl

/-- The blocks tile the array: index (n, ch, h, x) is in the block of the point with sample `n` and row block `h / 256`. -/
theorem covered (i : S32x3x1024x1024.Idx) :
    ∃ t : Fin cfg0.N, (cfg0.win 3).flush t = true ∧ i ∈ ((cfg0.win 3).blk t).view.set := by
  have hi0 : (i 0).val < 32 := (i 0).isLt
  have hi1 : (i 1).val < 3 := (i 1).isLt
  have hi2 : (i 2).val < 1024 := (i 2).isLt
  have hi3 : (i 3).val < 1024 := (i 3).isLt
  obtain ⟨t, ht⟩ := index_onto ⟨(i 0).val, hi0⟩ ⟨(i 2).val / 256, by omega⟩
  have q0 : win0_3.index t (0 : Fin 4) = (i 0).val := congrFun ht 0
  have q1 : win0_3.index t (1 : Fin 4) = 0 := congrFun ht 1
  have q2 : win0_3.index t (2 : Fin 4) = (i 2).val / 256 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 256 ≤ (i 2).val ∧ (i 2).val < win0_3.index t (2 : Fin 4) * 256 + 256; omega
  | ⟨3, _⟩ => show win0_3.index t (3 : Fin 4) * 1024 ≤ (i 3).val ∧ (i 3).val < win0_3.index t (3 : Fin 4) * 1024 + 1024; omega

/-- The result array after the run is `result`, with the image read as launched. -/
theorem final (c : Dev nD) : (dats m 0 c).arrAt 3 cfg0.N
    = Cert.Affine.affine (m ((c : Thread nD τ).loc main_arg0)) (scaleTab m c) (biasTab m c) := by
  have h := (dats m 0 c).arrAt_eq_of_cover 3 (result m c) (fun t _ => flushed_eq m c t) covered
  rw [h]
  unfold result
  rw [V_main_arg0]

/-- The run, read: the result buffer at the affine map of the image by the two tables, the arguments unchanged. -/
theorem run : θ_run defs (onTc (τ := τ) (main (F := F))) ⟨m, fun _ => 0, ρ⟩ fun r => ∀ c : Dev nD,
      r.2.mem ((c : Thread nD τ).loc main_v32)
        = Cert.Affine.affine (m ((c : Thread nD τ).loc main_arg0)) (scaleTab m c) (biasTab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Hand

end
-- ==== Proof.RefValue.lean ====
/-
  The reference at the ideal instance. Its last six host operations broadcast the two [32, 3] tables to the image's
  shape (first to [32, 3, 1, 1], then along the two unit axes), multiply the scale into the image and add the bias.
  A broadcast read at an index (n, ch, h, x) reads the table at (n, ch), so the result is the affine map of the
  image with the factors of the product in the other order; the product of extended reals is commutative.
  The tables themselves (two gathers added, for the scale and for the bias) stay unopened.
-/
import proofs.«151597_j6536940224718_1_alg».proof.Proof.Gen.ReferenceIdeal.Read
import proofs.«151597_j6536940224718_1_alg».proof.Proof.Spec
import Idealize.ShloMosaic.Lib.ValueIdx

noncomputable section

namespace Cert.ReferenceIdeal.Hand

open Cert.ReferenceIdeal Cert.ReferenceIdeal.Read Idealize.ShloMosaic Idealize.ShloMosaic.ValueIdx

/-- The reference's result is the affine map of the image by its scale table (the stage of `%14`) and its bias
    table (the stage of `%29`). -/
theorem result_eq (x0 : (⟨S32x3x1024x1024, .f32⟩ : BufTy).Contents (Elt Ideal)) (x1 x2 : (⟨S32, .i32⟩ : BufTy).Contents (Elt Ideal))
    (x3 x4 : (⟨S160x3, .f32⟩ : BufTy).Contents (Elt Ideal)) (x5 x6 : (⟨S256x3, .f32⟩ : BufTy).Contents (Elt Ideal)) :
    val_main_v35 (F := Ideal) x0 x1 x2 x3 x4 x5 x6
      = Cert.Affine.affine (F := Ideal) x0 (val_main_v14 (F := Ideal) x1 x2 x3 x5) (val_main_v29 (F := Ideal) x1 x2 x4 x6) := by
  funext i
  rw [val_main_v35_apply, val_main_v32_apply, val_main_v34_apply, val_main_v31_apply, val_main_v33_apply,
    val_main_v30_apply, Cert.Affine.affine_apply]
  have e1 : idx_main_v30 (idx_main_v31 i) = ix2 (i 0) (i 1) :=
    funext fun a => Fin.ext (by match a with | ⟨0, _⟩ => rfl | ⟨1, _⟩ => rfl)
  have e2 : idx_main_v33 (idx_main_v34 i) = ix2 (i 0) (i 1) :=
    funext fun a => Fin.ext (by match a with | ⟨0, _⟩ => rfl | ⟨1, _⟩ => rfl)
  rw [e1, e2]
  exact congrArg (fun z : EReal => z + _) (mul_comm _ _)

end Cert.ReferenceIdeal.Hand

end
-- ==== Proof.lean ====
/-
  The five claims. Both programs run the same host operations on the index vectors and the four small tables,
  giving a [32, 3] scale table `w` and a [32, 3] bias table `b`. The kernel reshapes them to [32, 3, 1, 1] and
  computes `image · w + b` block by block over a 32 × 4 grid; the reference broadcasts them to the image's shape
  and computes `w · image + b` in one piece. At the ideal instance both results are the affine map
  `(n, ch, h, x) ↦ image (n, ch, h, x) · w (n, ch) + b (n, ch)` on the extended reals; the only law used between
  the two sides is the commutativity of the product, which holds at infinite values too, so the precondition
  (finite inputs) is never opened. The ideal pass rewrote nothing, so the idealization claim is trivial.
-/
import proofs.«151597_j6536940224718_1_alg».proof.Defs
import proofs.«151597_j6536940224718_1_alg».proof.Proof.Gen.Kernel
import proofs.«151597_j6536940224718_1_alg».proof.Proof.Gen.Kernel.Skeleton
import proofs.«151597_j6536940224718_1_alg».proof.Proof.Gen.Kernel.Launch
import proofs.«151597_j6536940224718_1_alg».proof.Proof.Gen.Kernel.Points
import proofs.«151597_j6536940224718_1_alg».proof.Proof.Gen.Kernel.Frame
import proofs.«151597_j6536940224718_1_alg».proof.Proof.Gen.KernelIdeal
import proofs.«151597_j6536940224718_1_alg».proof.Proof.Gen.KernelIdeal.Skeleton
import proofs.«151597_j6536940224718_1_alg».proof.Proof.Gen.KernelIdeal.Launch
import proofs.«151597_j6536940224718_1_alg».proof.Proof.Gen.KernelIdeal.Points
import proofs.«151597_j6536940224718_1_alg».proof.Proof.Gen.KernelIdeal.Frame
import proofs.«151597_j6536940224718_1_alg».proof.Proof.Gen.ReferenceIdeal
import proofs.«151597_j6536940224718_1_alg».proof.Proof.Gen.Pre_finite_inputs
import proofs.«151597_j6536940224718_1_alg».proof.Proof.Gen.KernelIdeal.Value
import proofs.«151597_j6536940224718_1_alg».proof.Proof.Gen.ReferenceIdeal.Run
import proofs.«151597_j6536940224718_1_alg».proof.Proof.Gen.ReferenceIdeal.Read
import proofs.«151597_j6536940224718_1_alg».proof.Proof.Spec
import proofs.«151597_j6536940224718_1_alg».proof.Proof.HostTables
import proofs.«151597_j6536940224718_1_alg».proof.Proof.KernelValue
import proofs.«151597_j6536940224718_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At the ideal instance the kernel's result array and the reference's are the same affine map of the image by the
    same two tables: the kernel's run posts it, the reference's term is it once the product's factors are swapped, and
    the tables of the two programs are one expression of arguments that agree. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Hand.result_eq]
  obtain ⟨a0, a1, a2, a3, a4, a5, a6⟩ := hagree c
  rw [a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
